-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S1x64 : Shape := ⟨2, ![1, 64]⟩
abbrev S10000x64 : Shape := ⟨2, ![10000, 64]⟩
abbrev S1350000x64 : Shape := ⟨2, ![1350000, 64]⟩

abbrev nBuf : Space → Nat
  | .hbm => 84
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1250000, .i32⟩
  | .hbm, ⟨8, _⟩ => ⟨S1250000, .i32⟩
  | .hbm, ⟨9, _⟩ => ⟨S1350000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S_, .f32⟩
  | .hbm, ⟨14, _⟩ => ⟨S1350000, .f32⟩
  | .hbm, ⟨15, _⟩ => ⟨S_, .f32⟩
  | .hbm, ⟨16, _⟩ => ⟨S100000, .f32⟩
  | .hbm, ⟨17, _⟩ => ⟨S1350000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1350000, .i32⟩
  | .hbm, ⟨29, _⟩ => ⟨S1350000, .i1⟩
  | .hbm, ⟨30, _⟩ => ⟨S_, .i32⟩
  | .hbm, ⟨31, _⟩ => ⟨S1350000, .i32⟩
  | .hbm, ⟨32, _⟩ => ⟨S1350000, .i32⟩
  | .hbm, ⟨33, _⟩ => ⟨S1350000, .i32⟩
  | .hbm, ⟨34, _⟩ => ⟨S1350000x1, .i32⟩
  | .hbm, ⟨35, _⟩ => ⟨S1350000, .f32⟩
  | .hbm, ⟨36, _⟩ => ⟨S_, .i32⟩
  | .hbm, ⟨37, _⟩ => ⟨S1350000, .i32⟩
  | .hbm, ⟨38, _⟩ => ⟨S1350000, .i1⟩
  | .hbm, ⟨39, _⟩ => ⟨S_, .i32⟩
  | .hbm, ⟨40, _⟩ => ⟨S1350000, .i32⟩
  | .hbm, ⟨41, _⟩ => ⟨S1350000, .i32⟩
  | .hbm, ⟨42, _⟩ => ⟨S1350000, .i32⟩
  | .hbm, ⟨43, _⟩ => ⟨S1350000x1, .i32⟩
  | .hbm, ⟨44, _⟩ => ⟨S1350000, .f32⟩
  | .hbm, ⟨45, _⟩ => ⟨S1350000, .f32⟩
  | .hbm, ⟨46, _⟩ => ⟨S1x64, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1350000, .i32⟩
  | .hbm, ⟨51, _⟩ => ⟨S1350000, .i1⟩
  | .hbm, ⟨52, _⟩ => ⟨S_, .i32⟩
  | .hbm, ⟨53, _⟩ => ⟨S1350000, .i32⟩
  | .hbm, ⟨54, _⟩ => ⟨S1350000, .i32⟩
  | .hbm, ⟨55, _⟩ => ⟨S1350000, .i32⟩
  | .hbm, ⟨56, _⟩ => ⟨S1350000x1, .i32⟩
  | .hbm, ⟨57, _⟩ => ⟨S1350000x64, .f32⟩
  | .hbm, ⟨58, _⟩ => ⟨S1350000x1, .f32⟩
  | .hbm, ⟨59, _⟩ => ⟨S1350000x64, .f32⟩
  | .hbm, ⟨60, _⟩ => ⟨S1350000x64, .f32⟩
  | .hbm, ⟨61, _⟩ => ⟨S_, .f32⟩
  | .hbm, ⟨62, _⟩ => ⟨S100000x64, .f32⟩
  | .hbm, ⟨63, _⟩ => ⟨S1350000x1, .i32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1350000, .i32⟩
  | .hbm, ⟨69, _⟩ => ⟨S1350000, .i1⟩
  | .hbm, ⟨70, _⟩ => ⟨S_, .i32⟩
  | .hbm, ⟨71, _⟩ => ⟨S1350000, .i32⟩
  | .hbm, ⟨72, _⟩ => ⟨S1350000, .i32⟩
  | .hbm, ⟨73, _⟩ => ⟨S1350000, .i32⟩
  | .hbm, ⟨74, _⟩ => ⟨S1350000x1, .i32⟩
  | .hbm, ⟨75, _⟩ => ⟨S1350000x64, .f32⟩
  | .hbm, ⟨76, _⟩ => ⟨S1350000x1, .f32⟩
  | .hbm, ⟨77, _⟩ => ⟨S1350000x64, .f32⟩
  | .hbm, ⟨78, _⟩ => ⟨S1350000x64, .f32⟩
  | .hbm, ⟨79, _⟩ => ⟨S_, .f32⟩
  | .hbm, ⟨80, _⟩ => ⟨S100000x64, .f32⟩
  | .hbm, ⟨81, _⟩ => ⟨S1350000x1, .i32⟩
  | .hbm, ⟨82, _⟩ => ⟨S100000x64, .f32⟩
  | .hbm, ⟨83, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S10000x64_S64x64_S10000x64_1_0_0_1_n_n_wf : DotDims.WF S10000x64 S64x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1250000, .i32⟩
  | .hbm, ⟨8, _⟩ => ⟨S1250000, .i32⟩
  | .hbm, ⟨9, _⟩ => ⟨S1350000, .i32⟩
  | .hbm, ⟨10, _⟩ => ⟨S1x1250000, .i32⟩
  | .hbm, ⟨11, _⟩ => ⟨S1250000, .i32⟩
  | .hbm, ⟨12, _⟩ => ⟨S1350000, .i32⟩
  | .hbm, ⟨13, _⟩ => ⟨S_, .f32⟩
  | .hbm, ⟨14, _⟩ => ⟨S1350000, .f32⟩
  | .hbm, ⟨15, _⟩ => ⟨S_, .f32⟩
  | .hbm, ⟨16, _⟩ => ⟨S100000, .f32⟩
  | .hbm, ⟨17, _⟩ => ⟨S1350000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1350000, .i32⟩
  | .hbm, ⟨29, _⟩ => ⟨S1350000, .i1⟩
  | .hbm, ⟨30, _⟩ => ⟨S_, .i32⟩
  | .hbm, ⟨31, _⟩ => ⟨S1350000, .i32⟩
  | .hbm, ⟨32, _⟩ => ⟨S1350000, .i32⟩
  | .hbm, ⟨33, _⟩ => ⟨S1350000, .i32⟩
  | .hbm, ⟨34, _⟩ => ⟨S1350000x1, .i32⟩
  | .hbm, ⟨35, _⟩ => ⟨S1350000, .f32⟩
  | .hbm, ⟨36, _⟩ => ⟨S_, .i32⟩
  | .hbm, ⟨37, _⟩ => ⟨S1350000, .i32⟩
  | .hbm, ⟨38, _⟩ => ⟨S1350000, .i1⟩
  | .hbm, ⟨39, _⟩ => ⟨S_, .i32⟩
  | .hbm, ⟨40, _⟩ => ⟨S1350000, .i32⟩
  | .hbm, ⟨41, _⟩ => ⟨S1350000, .i32⟩
  | .hbm, ⟨42, _⟩ => ⟨S1350000, .i32⟩
  | .hbm, ⟨43, _⟩ => ⟨S1350000x1, .i32⟩
  | .hbm, ⟨44, _⟩ => ⟨S1350000, .f32⟩
  | .hbm, ⟨45, _⟩ => ⟨S1350000, .f32⟩
  | .hbm, ⟨46, _⟩ => ⟨S100000x64, .f32⟩
  | .hbm, ⟨47, _⟩ => ⟨S_, .i32⟩
  | .hbm, ⟨48, _⟩ => ⟨S1350000, .i32⟩
  | .hbm, ⟨49, _⟩ => ⟨S1350000, .i1⟩
  | .hbm, ⟨50, _⟩ => ⟨S_, .i32⟩
  | .hbm, ⟨51, _⟩ => ⟨S1350000, .i32⟩
  | .hbm, ⟨52, _⟩ => ⟨S1350000, .i32⟩
  | .hbm, ⟨53, _⟩ => ⟨S1350000, .i32⟩
  | .hbm, ⟨54, _⟩ => ⟨S1350000x1, .i32⟩
  | .hbm, ⟨55, _⟩ => ⟨S1350000x64, .f32⟩
  | .hbm, ⟨56, _⟩ => ⟨S1350000x1, .f32⟩
  | .hbm, ⟨57, _⟩ => ⟨S1350000x64, .f32⟩
  | .hbm, ⟨58, _⟩ => ⟨S1350000x64, .f32⟩
  | .hbm, ⟨59, _⟩ => ⟨S_, .f32⟩
  | .hbm, ⟨60, _⟩ => ⟨S100000x64, .f32⟩
  | .hbm, ⟨61, _⟩ => ⟨S1350000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1350000, .i32⟩
  | .hbm, ⟨72, _⟩ => ⟨S1350000, .i1⟩
  | .hbm, ⟨73, _⟩ => ⟨S_, .i32⟩
  | .hbm, ⟨74, _⟩ => ⟨S1350000, .i32⟩
  | .hbm, ⟨75, _⟩ => ⟨S1350000, .i32⟩
  | .hbm, ⟨76, _⟩ => ⟨S1350000, .i32⟩
  | .hbm, ⟨77, _⟩ => ⟨S1350000x1, .i32⟩
  | .hbm, ⟨78, _⟩ => ⟨S1350000x64, .f32⟩
  | .hbm, ⟨79, _⟩ => ⟨S1350000x1, .f32⟩
  | .hbm, ⟨80, _⟩ => ⟨S1350000x64, .f32⟩
  | .hbm, ⟨81, _⟩ => ⟨S1350000x64, .f32⟩
  | .hbm, ⟨82, _⟩ => ⟨S_, .f32⟩
  | .hbm, ⟨83, _⟩ => ⟨S100000x64, .f32⟩
  | .hbm, ⟨84, _⟩ => ⟨S1350000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x64_S64x64_S100000x64_1_0_0_1_n_n_wf : DotDims.WF S100000x64 S64x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

class Facts : Prop extends Facts₀ where

variable [Facts]
-- ==== Proof.KernelRun.lean ====
/-
  The idealized kernel's run with its result array named.

  The program is four pipelined regions among stretches of host operations. Its run leaves every buffer that outlives a
  region at the contents of the last boundary of that chain — the fold that applies each stretch's operations in order
  and, at each region, replaces the region's arrays by what its write-backs leave. Read at the result buffer this says
  what the program returns; read at the six arguments it says they end as launched.
-/
import proofs.«154627_j31258771980774_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the six arguments end as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.GcnSpec.lean ====
/-
  One graph-convolution layer on 100000 nodes with 64 features, cut at the places where the dense arithmetic sits.

  * `lin x w`: the linear transform. Entry (p, q) is the sum over the 64 shared features of row p of `x` times
    column q of `w`, on the extended reals; no order of summation is left in it.
  * `biasRelu a b`: a [1, 64] bias row added to every row of `a`, then the maximum with zero.
  * `biasReluRes a b x`: the same, then the residual `x` added entry by entry.

  The neighbour aggregation between these pieces (gather, scale, scatter-add over the edge list) is the same
  text in both programs and is never opened.
-/
import Idealize.ShloMosaic.Lib.ValueIdx

noncomputable section

namespace Cert.Gcn

open Idealize.ShloMosaic Idealize.ShloMosaic.ValueIdx
open scoped BigOperators

/-- Node features: 100000 rows of 64. -/
abbrev Nodes : Shape := ⟨2, ![100000, 64]⟩
/-- A weight matrix: 64 by 64. -/
abbrev Weights : Shape := ⟨2, ![64, 64]⟩
/-- A bias as one row of 64. -/
abbrev BiasRow : Shape := ⟨2, ![1, 64]⟩

/-- The linear transform: entry (p, q) is the sum over k of x(p, k) · w(k, q). -/
def lin (x : FVec Ideal Nodes .f32) (w : FVec Ideal Weights .f32) : FVec Ideal Nodes .f32 :=
  fun i => ∑ k : Fin 64, x (ix2 (n0 := 100000) (n1 := 64) (i 0) k) * w (ix2 (n0 := 64) (n1 := 64) k (i 1))

variable {F : FTy → Type} [FloatOps F]

/-- Bias row added to every row, then the maximum with zero. -/
def biasRelu (a : FVec F Nodes .f32) (b : FVec F BiasRow .f32) : FVec F Nodes .f32 :=
  fun i => FloatOps.maximumf (FloatOps.addf (a i) (b (ix2 (n0 := 1) (n1 := 64) 0 (i 1)))) (FloatOps.ofBits .f32 0x00000000#32)

/-- The same, then the residual added. -/
def biasReluRes (a : FVec F Nodes .f32) (b : FVec F BiasRow .f32) (x : FVec F Nodes .f32) : FVec F Nodes .f32 :=
  fun i => FloatOps.addf (biasRelu a b i) (x i)

theorem lin_apply (x : FVec Ideal Nodes .f32) (w : FVec Ideal Weights .f32) (p : Fin 100000) (q : Fin 64) :
    lin x w (ix2 p q) = ∑ k : Fin 64, x (ix2 p k) * w (ix2 k q) := rfl

theorem biasRelu_apply (a : FVec F Nodes .f32) (b : FVec F BiasRow .f32) (p : Fin 100000) (q : Fin 64) :
    biasRelu a b (ix2 p q)
      = FloatOps.maximumf (FloatOps.addf (a (ix2 p q)) (b (ix2 (0 : Fin 1) q))) (FloatOps.ofBits .f32 0x00000000#32) := rfl

theorem biasReluRes_apply (a : FVec F Nodes .f32) (b : FVec F BiasRow .f32) (x : FVec F Nodes .f32) (p : Fin 100000) (q : Fin 64) :
    biasReluRes a b x (ix2 p q)
      = FloatOps.addf (FloatOps.maximumf (FloatOps.addf (a (ix2 p q)) (b (ix2 (0 : Fin 1) q))) (FloatOps.ofBits .f32 0x00000000#32)) (x (ix2 p q)) := rfl

end Cert.Gcn

end
-- ==== Proof.Layers.lean ====
/-
  The whole network as one function of the six arguments, written over the kernel program's own vocabulary.

  From the edge list come the source and destination columns (each edge row followed by the self loops 0 … 99999), the
  degree of every node (a scatter-add of ones along the destinations), its inverse square root where the degree is
  positive and zero elsewhere, and the symmetric normalisation of every edge (the product of that quantity at its two ends).
  One layer's neighbour aggregation gathers the rows of a feature matrix at the sources, scales row e by the
  normalisation of edge e, and scatter-adds the rows at the destinations. The network is
      x ↦ max(agg(max(agg(x·W1) + b1, 0)·W2) + b2, 0) + x.
  The indexing operations are kept exactly as the program spells them (an index below zero is first moved up by the
  number of nodes, as a signed array index is); nothing in this development looks inside them.
-/
import proofs.«154627_j31258771980774_1_alg».proof.Proof.Gen.KernelIdeal
import proofs.«154627_j31258771980774_1_alg».proof.Proof.GcnSpec

noncomputable section

namespace Cert.KernelIdeal.Layers

open Idealize.ShloMosaic Cert.KernelIdeal Cert.KernelIdeal.Facts₀ Cert.Gcn

/-- The edge list's sources, then the self loops. -/
def src (e : (⟨S2x1250000, .i32⟩ : BufTy).Contents (Elt Ideal)) : (⟨S1350000, .i32⟩ : BufTy).Contents (Elt Ideal) :=
  concatenate S1350000 0 [⟨S1250000, (shapeCast _ (extractStridedSlice S1x1250000 ![0, 0] e slices_S2x1250000_S1x1250000_0_0) shapeCasts_S1x1250000_S1250000)⟩, ⟨S100000, (iotaInDim S100000 32 0)⟩] concatenates_S1250000_S100000_S1350000_d0

/-- The edge list's destinations, then the self loops. -/
def dst (e : (⟨S2x1250000, .i32⟩ : BufTy).Contents (Elt Ideal)) : (⟨S1350000, .i32⟩ : BufTy).Contents (Elt Ideal) :=
  concatenate S1350000 0 [⟨S1250000, (shapeCast _ (extractStridedSlice S1x1250000 ![1, 0] e slices_S2x1250000_S1x1250000_1_0) shapeCasts_S1x1250000_S1250000)⟩, ⟨S100000, (iotaInDim S100000 32 0)⟩] concatenates_S1250000_S100000_S1350000_d0

/-- Node indices as a column of start indices for a gather: a negative index is moved up by the number of nodes. -/
def wrapCol (v : (⟨S1350000, .i32⟩ : BufTy).Contents (Elt Ideal)) : (⟨S1350000x1, .i32⟩ : BufTy).Contents (Elt Ideal) :=
  broadcastInDim S1350000x1 ![0] bcast_S1350000_S1350000x1_0 (select (cmpi .slt v (broadcastInDim S1350000 ![] bcast_S_S1350000 (constantI S_ 32 0#32))) (addi v (broadcastInDim S1350000 ![] bcast_S_S1350000 (constantI S_ 32 100000#32))) v)

/-- Node indices as a column of scatter indices. -/
def col (v : (⟨S1350000, .i32⟩ : BufTy).Contents (Elt Ideal)) : (⟨S1350000x1, .i32⟩ : BufTy).Contents (Elt Ideal) :=
  broadcastInDim S1350000x1 ![0] bcast_S1350000_S1350000x1_0 v

/-- Every node's degree: ones added along the destinations. -/
def deg (e : (⟨S2x1250000, .i32⟩ : BufTy).Contents (Elt Ideal)) : FVec Ideal S100000 .f32 :=
  Host.scatterAdd scatter_S100000_S1350000x1_S1350000_n_0_0_1 (broadcastInDim S100000 ![] bcast_S_S100000 (constant S_ .f32 0x00000000#32)) (col (dst e)) (broadcastInDim S1350000 ![] bcast_S_S1350000 (constant S_ .f32 0x3F800000#32))

/-- The inverse square root of the degree where it is positive, zero elsewhere. -/
def dis (e : (⟨S2x1250000, .i32⟩ : BufTy).Contents (Elt Ideal)) : FVec Ideal S100000 .f32 :=
  select (cmpf (F := Ideal) .ogt (deg e) (broadcastInDim S100000 ![] bcast_S_S100000 (constant S_ .f32 0x00000000#32))) (Host.rsqrt (deg e)) (broadcastInDim S100000 ![] bcast_S_S100000 (id (constant S_ .f32 0x00000000#32)))

/-- The normalisation of every edge: that quantity at its source times that quantity at its destination. -/
def edgeScale (e : (⟨S2x1250000, .i32⟩ : BufTy).Contents (Elt Ideal)) : FVec Ideal S1350000 .f32 :=
  mulf (Host.gather gather_S100000_S1350000x1_S1350000_n_0_n_n_0_1_1 (dis e) (wrapCol (src e))) (Host.gather gather_S100000_S1350000x1_S1350000_n_0_n_n_0_1_1 (dis e) (wrapCol (dst e)))

/-- One layer's neighbour aggregation of a feature matrix: gather at the sources, scale by the edge's normalisation,
    scatter-add at the destinations. -/
def aggregate (h : FVec Ideal S100000x64 .f32) (e : (⟨S2x1250000, .i32⟩ : BufTy).Contents (Elt Ideal)) : FVec Ideal S100000x64 .f32 :=
  Host.scatterAdd scatter_S100000x64_S1350000x1_S1350000x64_1_0_0_1 (broadcastInDim S100000x64 ![] bcast_S_S100000x64 (constant S_ .f32 0x00000000#32)) (col (dst e)) (mulf (Host.gather gather_S100000x64_S1350000x1_S1350000x64_1_0_n_n_0_1_164 h (wrapCol (src e))) (broadcastInDim S1350000x64 ![0, 1] bcast_S1350000x1_S1350000x64_0_1 (broadcastInDim S1350000x1 ![0] bcast_S1350000_S1350000x1_0 (edgeScale e))))

/-- A bias of 64 entries as one row. -/
def biasRow (b : FVec Ideal S64 .f32) : FVec Ideal S1x64 .f32 := shapeCast S1x64 b shapeCasts_S64_S1x64

/-- The network. -/
def out (x : FVec Ideal S100000x64 .f32) (e : (⟨S2x1250000, .i32⟩ : BufTy).Contents (Elt Ideal)) (w1 : FVec Ideal S64x64 .f32) (b1 : FVec Ideal S64 .f32)
    (w2 : FVec Ideal S64x64 .f32) (b2 : FVec Ideal S64 .f32) : FVec Ideal S100000x64 .f32 :=
  biasReluRes (aggregate (lin (biasRelu (aggregate (lin x w1) e) (biasRow b1)) w2) e) (biasRow b2) x

end Cert.KernelIdeal.Layers

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.RegionLin.lean ====
import proofs.«154627_j31258771980774_1_alg».proof.Proof.Gen.KernelIdeal.Frame
import proofs.«154627_j31258771980774_1_alg».proof.Proof.GcnSpec
import proofs.«154627_j31258771980774_1_alg».proof.Proof.LibPlainMatmul
import Idealize.ShloMosaic.Lib.Pipeline.Value
import Idealize.ShloMosaic.Lib.ValueIdx
import Idealize.ShloMosaic.PureOps.Ideal.Laws

set_option maxRecDepth 16384
noncomputable section
namespace Cert.KernelIdeal.Region
open Idealize.ShloMosaic Idealize.ShloMosaic.TcCoe Idealize.SL.Sem Idealize.ShloMosaic.ValueIdx
open Idealize.ShloMosaic.Pipeline (Dat)
open Cert.KernelIdeal Cert.KernelIdeal.Gen
open scoped BigOperators
variable (V : (c : Dev nD) → (b : Ref sig .tc) → Buf (Elt Ideal) ((c : Thread nD τ).loc b))

/-- The offset of a whole-buffer access is zero on both axes. -/
theorem off_zero : (![0, 0] : Fin 2 → Nat) = fun _ => 0 := funext fun a => by fin_cases a <;> rfl

/-! ## A block's row against the weights is the linear transform's entry -/

/-- The sum over the shared axis of row p of a block times column q of a weights block is the linear transform's entry
    at the array index i, when the block's row p is the array's row of i, i's column is q, and the weights block's
    column q is the weights' column q. -/
theorem rowsum_eq_lin (X : Vec Ideal S100000x64 .f32) (Wt : Vec Ideal S64x64 .f32)
    (x : Vec Ideal S10000x64 .f32) (w : Vec Ideal S64x64 .f32) (p : Fin 10000) (q : Fin 64) (i : S100000x64.Idx)
    (hi : (i 1).val = q.val)
    (hx : ∀ k : Fin 64, x (ix2 p k) = X (ix2 (i 0) k))
    (hw : ∀ k : Fin 64, w (ix2 k q) = Wt (ix2 k q)) :
    ∑ k : Fin 64, x (ix2 p k) * w (ix2 k q) = Cert.Gcn.lin X Wt i := by
  unfold Cert.Gcn.lin
  refine Finset.sum_congr rfl fun k _ => ?_
  rw [hx k, hw k]
  have e : (i 1 : Fin 64) = q := Fin.ext hi
  rw [e]

/-! ## The first product region: the node features by the first weights -/

/-- The body's product at an entry: the sum over the shared axis of row p of the block times column q of the weights
    (the roundings to bf16 are identities on the extended reals). -/
theorem prod0_apply (x : Vec Ideal S10000x64 .f32) (w : Vec Ideal S64x64 .f32) (p : Fin 10000) (q : Fin 64) :
    k0_pay1 x w (ix2 p q) = ∑ k : Fin 64, x (ix2 p k) * w (ix2 k q) := by
  unfold k0_pay1
  exact Cert.LibPlainMatmul.matmul_zero_plain _ _ _ p q

/-- The block index maps over the ten points: the input's and the output's row block is the point itself, every
    other block index is zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What a point writes back is its block of the linear transform of the arrays as the region finds them. -/
theorem flushed0_eq (c : Dev nD) (t : Fin cfg0.N) :
    (dat0 V c).flushed 2 t
      = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero off_zero]
  simp only [View.ld_unit_zero (S := S10000x64) off_zero, View.ld_unit_zero (S := S64x64) off_zero]
  obtain ⟨e00, e01, e10, e11, e20, e21⟩ := idx0 t
  funext j
  obtain ⟨p, q, rfl⟩ : ∃ (p : Fin 10000) (q : Fin 64), j = ix2 p q := ⟨j 0, j 1, eq_ix2 j⟩
  refine (prod0_apply _ _ p q).trans
    (rowsum_eq_lin (V c main_arg0) (V c main_arg2) _ _ p q (((cfg0.win 2).blk t).view.emb (ix2 p q)) ?_ ?_ ?_)
  · show win0_2.index t (1 : Fin 2) * 64 + 1 * q.val = q.val
    omega
  · intro k
    unfold iblk0
    rw [View.read_apply]
    show V c main_arg0 _ = V c main_arg0 _
    refine congrArg _ (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 64 + 1 * k.val = k.val
      omega
  · intro k
    unfold iblk0
    rw [View.read_apply]
    show V c main_arg2 _ = V c main_arg2 _
    refine congrArg _ (funext fun a => Fin.ext ?_)
    match a with
    | ⟨0, _⟩ =>
      show win0_1.index t (0 : Fin 2) * 64 + 1 * k.val = k.val
      omega
    | ⟨1, _⟩ =>
      show win0_1.index t (1 : Fin 2) * 64 + 1 * q.val = q.val
      omega

/-- An index of the array is in a point's block iff each coordinate is in the block's range on its axis. -/
theorem mem_blk0 (t : Fin cfg0.N) (i : S100000x64.Idx) :
    i ∈ ((cfg0.win 2).blk t).view.set
      ↔ ∀ a : Fin 2, win0_2.index t a * S10000x64.size a ≤ (i a).val
          ∧ (i a).val < win0_2.index t a * S10000x64.size a + S10000x64.size a := by
  show i ∈ ((View.whole main_v32).slice (win0_2.rect t)).set ↔ _
  rw [View.set_slice_whole, Rect.mem_set_unit]
  exact Iff.rfl

/-- Every row of the array lies in the block of the point row / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; omega⟩
  have ht : t.val = (i 0).val / 10000 := rfl
  obtain ⟨e00, e01, e10, e11, e20, e21⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The first product region leaves the linear transform of the node features by the first weights. -/
theorem final0 (c : Dev nD) : (dat0 V c).arrAt 2 cfg0.N = Cert.Gcn.lin (V c main_arg0) (V c main_arg2) :=
  (dat0 V c).arrAt_eq_of_cover 2 (Cert.Gcn.lin (V c main_arg0) (V c main_arg2)) (fun t _ => flushed0_eq V c t) cover0

/-! ## The second product region: the hidden features by the second weights (the block passes an identity reshape first) -/

/-- The body's product at an entry: the sum over the shared axis of row p of the block times column q of the weights
    (the roundings to bf16 are identities on the extended reals). -/
theorem prod2_apply (x : Vec Ideal S10000x64 .f32) (w : Vec Ideal S64x64 .f32) (p : Fin 10000) (q : Fin 64) :
    k2_pay1 x w (ix2 p q) = ∑ k : Fin 64, x (ix2 p k) * w (ix2 k q) := by
  unfold k2_pay1
  refine (Cert.LibPlainMatmul.matmul_zero_plain _ _ _ p q).trans ?_
  refine Finset.sum_congr rfl fun k _ => ?_
  exact congrArg (fun z => z * w (ix2 k q)) (congrFun (shapeCast_self x shapeCasts_S10000x64_S10000x64) (ix2 p k))

/-- The block index maps over the ten points: the input's and the output's row block is the point itself, every
    other block index is zero. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What a point writes back is its block of the linear transform of the arrays as the region finds them. -/
theorem flushed2_eq (c : Dev nD) (t : Fin cfg2.N) :
    (dat2 V c).flushed 2 t
      = ((cfg2.win 2).blk t).view.read (Elt Ideal) (Cert.Gcn.lin (V c main_v46) (V c main_arg4)) := by
  show (cfg2.win 2).cut (grid2.coords t) ((dat2 V c).after 2 t) = _
  rw [after2_2]
  unfold out2_2
  rw [View.canon_unit_zero off_zero]
  simp only [View.ld_unit_zero (S := S10000x64) off_zero, View.ld_unit_zero (S := S64x64) off_zero]
  obtain ⟨e00, e01, e10, e11, e20, e21⟩ := idx2 t
  funext j
  obtain ⟨p, q, rfl⟩ : ∃ (p : Fin 10000) (q : Fin 64), j = ix2 p q := ⟨j 0, j 1, eq_ix2 j⟩
  refine (prod2_apply _ _ p q).trans
    (rowsum_eq_lin (V c main_v46) (V c main_arg4) _ _ p q (((cfg2.win 2).blk t).view.emb (ix2 p q)) ?_ ?_ ?_)
  · show win2_2.index t (1 : Fin 2) * 64 + 1 * q.val = q.val
    omega
  · intro k
    unfold iblk2
    rw [View.read_apply]
    show V c main_v46 _ = V c main_v46 _
    refine congrArg _ (funext fun a => Fin.ext ?_)
    match a with
    | ⟨0, _⟩ =>
      show win2_0.index t (0 : Fin 2) * 10000 + 1 * p.val = win2_2.index t (0 : Fin 2) * 10000 + 1 * p.val
      omega
    | ⟨1, _⟩ =>
      show win2_0.index t (1 : Fin 2) * 64 + 1 * k.val = k.val
      omega
  · intro k
    unfold iblk2
    rw [View.read_apply]
    show V c main_arg4 _ = V c main_arg4 _
    refine congrArg _ (funext fun a => Fin.ext ?_)
    match a with
    | ⟨0, _⟩ =>
      show win2_1.index t (0 : Fin 2) * 64 + 1 * k.val = k.val
      omega
    | ⟨1, _⟩ =>
      show win2_1.index t (1 : Fin 2) * 64 + 1 * q.val = q.val
      omega

/-- An index of the array is in a point's block iff each coordinate is in the block's range on its axis. -/
theorem mem_blk2 (t : Fin cfg2.N) (i : S100000x64.Idx) :
    i ∈ ((cfg2.win 2).blk t).view.set
      ↔ ∀ a : Fin 2, win2_2.index t a * S10000x64.size a ≤ (i a).val
          ∧ (i a).val < win2_2.index t a * S10000x64.size a + S10000x64.size a := by
  show i ∈ ((View.whole main_v47).slice (win2_2.rect t)).set ↔ _
  rw [View.set_slice_whole, Rect.mem_set_unit]
  exact Iff.rfl

/-- Every row of the array lies in the block of the point row / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  let t : Fin cfg2.N := ⟨(i 0).val / 10000, by show (i 0).val / 10000 < grid2.N; omega⟩
  have ht : t.val = (i 0).val / 10000 := rfl
  obtain ⟨e00, e01, e10, e11, e20, e21⟩ := idx2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The second product region leaves the linear transform of the hidden features by the second weights. -/
theorem final2 (c : Dev nD) : (dat2 V c).arrAt 2 cfg2.N = Cert.Gcn.lin (V c main_v46) (V c main_arg4) :=
  (dat2 V c).arrAt_eq_of_cover 2 (Cert.Gcn.lin (V c main_v46) (V c main_arg4)) (fun t _ => flushed2_eq V c t) cover2

end Cert.KernelIdeal.Region
end
-- ==== Proof.RegionBias.lean ====
import proofs.«154627_j31258771980774_1_alg».proof.Proof.Gen.KernelIdeal.Frame
import proofs.«154627_j31258771980774_1_alg».proof.Proof.GcnSpec
import Idealize.ShloMosaic.Lib.Pipeline.Value
import Idealize.ShloMosaic.Lib.ValueIdx
import Idealize.ShloMosaic.Lib.ValueLayout

set_option maxRecDepth 16384
noncomputable section
namespace Cert.KernelIdeal.Region
open Idealize.ShloMosaic Idealize.ShloMosaic.TcCoe Idealize.SL.Sem Idealize.ShloMosaic.ValueIdx
open Idealize.ShloMosaic.Pipeline (Dat)
open Cert.KernelIdeal Cert.KernelIdeal.Gen
variable (V : (c : Dev nD) → (b : Ref sig .tc) → Buf (Elt Ideal) ((c : Thread nD τ).loc b))

/-! # The two pointwise regions, read as whole arrays

Each region walks ten points; point t holds rows 10000·t … 10000·t + 9999 of every [100000, 64] array and the whole
[1, 64] bias row. At each point the body adds the bias row to every row of its block, takes the maximum with zero and
(in the second region) adds the residual block. Read entry by entry, what point t writes back is block t of one function
of the whole arrays; the ten blocks tile the rows, so the output array ends holding that function.

## The first pointwise region: bias and ReLU -/

/-- The zero offsets of a whole-buffer access. -/
theorem zeroOffsets : (![0, 0] : Fin 2 → Nat) = fun _ => 0 := funext fun a => by fin_cases a <;> rfl

/-- One block of the bias-and-ReLU body at row p, column q: the block's entry plus the bias row's entry at q, then the
    maximum with zero. -/
theorem biasReluBlock_apply (x : Vec Ideal S10000x64 .f32) (b : Vec Ideal S1x64 .f32) (p : Fin 10000) (q : Fin 64) :
    k1_pay1 x b (ix2 p q)
      = FloatOps.maximumf (FloatOps.addf (x (ix2 p q)) (b (ix2 (0 : Fin 1) q))) (FloatOps.ofBits .f32 0x00000000#32) := by
  have e1 : (shapeCast S10000x64 x shapeCasts_S10000x64_S10000x64 : FVec Ideal S10000x64 .f32) = x := shapeCast_self x _
  have e2 : (shapeCast S1x64 b shapeCasts_S1x64_S1x64 : FVec Ideal S1x64 .f32) = b := shapeCast_self b _
  unfold k1_pay1
  show FloatOps.maximumf (FloatOps.addf ((shapeCast S10000x64 x shapeCasts_S10000x64_S10000x64 : FVec Ideal S10000x64 .f32) (ix2 p q))
      ((broadcastTo S10000x64 (shapeCast S1x64 b shapeCasts_S1x64_S1x64 : FVec Ideal S1x64 .f32) broadcasts_S1x64_S10000x64 : FVec Ideal S10000x64 .f32) (ix2 p q))) _ = _
  rw [e1, e2, broadcastTo_1b_ab_apply]
  rfl

/-- The printed index maps of the bias-and-ReLU region over its ten points: the row blocks move with the point, the
    bias row stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the bias-and-ReLU of the two arrays as the region finds them. -/
theorem flushed1 (c : Dev nD) (t : Fin cfg1.N) :
    (dat1 V c).flushed 2 t = ((cfg1.win 2).blk t).view.read (Elt Ideal) (Cert.Gcn.biasRelu (F := Ideal) (V c main_v45) (V c main_v30)) := by
  show (cfg1.win 2).cut (grid1.coords t) ((dat1 V c).after 2 t) = _
  rw [after1_2]
  unfold out1_2
  rw [View.canon_unit_zero zeroOffsets]
  simp only [View.ld_unit_zero (S := S10000x64) zeroOffsets, View.ld_unit_zero (S := S1x64) zeroOffsets]
  refine funext fun (j : S10000x64.Idx) => ?_
  obtain ⟨p, q, rfl⟩ : ∃ (p : Fin 10000) (q : Fin 64), j = ix2 p q := ⟨j 0, j 1, eq_ix2 j⟩
  show k1_pay1 (iblk1 V c 0 t) (iblk1 V c 1 t) (ix2 p q)
    = Cert.Gcn.biasRelu (F := Ideal) (V c main_v45) (V c main_v30) (((cfg1.win 2).blk t).view.emb (ix2 p q))
  refine (biasReluBlock_apply _ _ p q).trans ?_
  obtain ⟨i00, i01, i10, i11, i20, i21⟩ := idx1 t
  have hp : p.val < 10000 := p.isLt
  have hq : q.val < 64 := q.isLt
  have ht : t.val < 10 := t.isLt
  have hr : 10000 * t.val + p.val < 100000 := by omega
  have hemb : ((cfg1.win 2).blk t).view.emb (ix2 p q) = ix2 (⟨10000 * t.val + p.val, hr⟩ : Fin 100000) q := by
    funext a; apply Fin.ext
    match a with
    | ⟨0, _⟩ => show win1_2.index t (0 : Fin 2) * 10000 + 1 * p.val = 10000 * t.val + p.val; omega
    | ⟨1, _⟩ => show win1_2.index t (1 : Fin 2) * 64 + 1 * q.val = q.val; omega
  have h0 : iblk1 V c 0 t (ix2 p q) = V c main_v45 (ix2 (⟨10000 * t.val + p.val, hr⟩ : Fin 100000) q) := by
    show V c main_v45 (((cfg1.win 0).blk t).view.emb (ix2 p q)) = _
    refine congrArg _ (funext fun a => Fin.ext ?_)
    match a with
    | ⟨0, _⟩ => show win1_0.index t (0 : Fin 2) * 10000 + 1 * p.val = 10000 * t.val + p.val; omega
    | ⟨1, _⟩ => show win1_0.index t (1 : Fin 2) * 64 + 1 * q.val = q.val; omega
  have h1 : iblk1 V c 1 t (ix2 (0 : Fin 1) q) = V c main_v30 (ix2 (0 : Fin 1) q) := by
    show V c main_v30 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  rw [hemb, Cert.Gcn.biasRelu_apply, h0, h1]

/-- An index of the [100000, 64] array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v46).slice (win1_2.rect t)).set ↔ _
  rw [View.set_slice_whole, Rect.mem_set_unit]
  exact Iff.rfl

/-- Row r lies in the block of point r / 10000, and every point writes its block back. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, e0, e1⟩ := idx1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The first pointwise region leaves the bias-and-ReLU of its input array and bias row in its output array. -/
theorem final1 (c : Dev nD) : (dat1 V c).arrAt 2 cfg1.N = Cert.Gcn.biasRelu (F := Ideal) (V c main_v45) (V c main_v30) :=
  (dat1 V c).arrAt_eq_of_cover 2 _ (fun t _ => flushed1 V c t) cover1

/-! ## The second pointwise region: bias, ReLU and the residual -/

/-- One block of the bias-ReLU-residual body at row p, column q: the bias-and-ReLU entry plus the residual block's entry. -/
theorem biasReluResBlock_apply (x : Vec Ideal S10000x64 .f32) (b : Vec Ideal S1x64 .f32) (y : Vec Ideal S10000x64 .f32)
    (p : Fin 10000) (q : Fin 64) :
    k3_pay1 x b y (ix2 p q)
      = FloatOps.addf (FloatOps.maximumf (FloatOps.addf (x (ix2 p q)) (b (ix2 (0 : Fin 1) q))) (FloatOps.ofBits .f32 0x00000000#32))
          (y (ix2 p q)) := by
  have e1 : (shapeCast S10000x64 x shapeCasts_S10000x64_S10000x64 : FVec Ideal S10000x64 .f32) = x := shapeCast_self x _
  have e2 : (shapeCast S1x64 b shapeCasts_S1x64_S1x64 : FVec Ideal S1x64 .f32) = b := shapeCast_self b _
  unfold k3_pay1
  show FloatOps.addf (FloatOps.maximumf (FloatOps.addf ((shapeCast S10000x64 x shapeCasts_S10000x64_S10000x64 : FVec Ideal S10000x64 .f32) (ix2 p q))
      ((broadcastTo S10000x64 (shapeCast S1x64 b shapeCasts_S1x64_S1x64 : FVec Ideal S1x64 .f32) broadcasts_S1x64_S10000x64 : FVec Ideal S10000x64 .f32) (ix2 p q))) _) _ = _
  rw [e1, e2, broadcastTo_1b_ab_apply]
  rfl

/-- The printed index maps of the residual region over its ten points: the three row blocks move with the point, the
    bias row stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back is block t of the bias-ReLU-residual of the three arrays as the region finds them. -/
theorem flushed3 (c : Dev nD) (t : Fin cfg3.N) :
    (dat3 V c).flushed 3 t = ((cfg3.win 3).blk t).view.read (Elt Ideal)
      (Cert.Gcn.biasReluRes (F := Ideal) (V c main_v60) (V c main_v31) (V c main_arg0)) := by
  show (cfg3.win 3).cut (grid3.coords t) ((dat3 V c).after 3 t) = _
  rw [after3_3]
  unfold out3_3
  rw [View.canon_unit_zero zeroOffsets]
  simp only [View.ld_unit_zero (S := S10000x64) zeroOffsets, View.ld_unit_zero (S := S1x64) zeroOffsets]
  refine funext fun (j : S10000x64.Idx) => ?_
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (ix2 p q)
    = Cert.Gcn.biasReluRes (F := Ideal) (V c main_v60) (V c main_v31) (V c main_arg0) (((cfg3.win 3).blk t).view.emb (ix2 p q))
  refine (biasReluResBlock_apply _ _ _ p q).trans ?_
  obtain ⟨i00, i01, i10, i11, i20, i21, i30, i31⟩ := idx3 t
  have hp : p.val < 10000 := p.isLt
  have hq : q.val < 64 := q.isLt
  have ht : t.val < 10 := t.isLt
  have hr : 10000 * t.val + p.val < 100000 := by omega
  have hemb : ((cfg3.win 3).blk t).view.emb (ix2 p q) = ix2 (⟨10000 * t.val + p.val, hr⟩ : Fin 100000) q := by
    funext a; apply Fin.ext
    match a with
    | ⟨0, _⟩ => show win3_3.index t (0 : Fin 2) * 10000 + 1 * p.val = 10000 * t.val + p.val; omega
    | ⟨1, _⟩ => show win3_3.index t (1 : Fin 2) * 64 + 1 * q.val = q.val; omega
  have h0 : iblk3 V c 0 t (ix2 p q) = V c main_v60 (ix2 (⟨10000 * t.val + p.val, hr⟩ : Fin 100000) q) := by
    show V c main_v60 (((cfg3.win 0).blk t).view.emb (ix2 p q)) = _
    refine congrArg _ (funext fun a => Fin.ext ?_)
    match a with
    | ⟨0, _⟩ => show win3_0.index t (0 : Fin 2) * 10000 + 1 * p.val = 10000 * t.val + p.val; omega
    | ⟨1, _⟩ => show win3_0.index t (1 : Fin 2) * 64 + 1 * q.val = q.val; omega
  have h1 : iblk3 V c 1 t (ix2 (0 : Fin 1) q) = V c main_v31 (ix2 (0 : Fin 1) q) := by
    show V c main_v31 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  have h2 : iblk3 V c 2 t (ix2 p q) = V c main_arg0 (ix2 (⟨10000 * t.val + p.val, hr⟩ : Fin 100000) q) := by
    show V c main_arg0 (((cfg3.win 2).blk t).view.emb (ix2 p q)) = _
    refine congrArg _ (funext fun a => Fin.ext ?_)
    match a with
    | ⟨0, _⟩ => show win3_2.index t (0 : Fin 2) * 10000 + 1 * p.val = 10000 * t.val + p.val; omega
    | ⟨1, _⟩ => show win3_2.index t (1 : Fin 2) * 64 + 1 * q.val = q.val; omega
  rw [hemb, Cert.Gcn.biasReluRes_apply, h0, h1, h2]

/-- An index of the [100000, 64] array is in point t's block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v61).slice (win3_3.rect t)).set ↔ _
  rw [View.set_slice_whole, Rect.mem_set_unit]
  exact Iff.rfl

/-- Row r lies in the block of point r / 10000, and every point writes its block back. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by rw [show cfg3.N = 10 from N_3]; omega⟩, rfl⟩
  obtain ⟨-, -, -, -, -, -, e0, e1⟩ := idx3 t
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- The second pointwise region leaves the bias-ReLU-residual of its input array, bias row and residual array in its
    output array. -/
theorem final3 (c : Dev nD) : (dat3 V c).arrAt 3 cfg3.N = Cert.Gcn.biasReluRes (F := Ideal) (V c main_v60) (V c main_v31) (V c main_arg0) :=
  (dat3 V c).arrAt_eq_of_cover 3 _ (fun t _ => flushed3 V c t) cover3

end Cert.KernelIdeal.Region
end
-- ==== Proof.KernelValue.lean ====
import proofs.«154627_j31258771980774_1_alg».proof.Proof.Gen.KernelIdeal.Frame
import proofs.«154627_j31258771980774_1_alg».proof.Proof.Layers
import proofs.«154627_j31258771980774_1_alg».proof.Proof.RegionLin
import proofs.«154627_j31258771980774_1_alg».proof.Proof.RegionBias
import Idealize.ShloMosaic.Lib.StableHlo.Run

set_option maxRecDepth 16384

/-
  What the idealized kernel returns, as the network of its six arguments.

  The run's last boundary is a fold through the program: three stretches of host operations, the first linear
  transform, the first aggregation, the first bias with the maximum with zero, the second linear transform, the second
  aggregation, and the second bias with the maximum with zero and the residual. Each host stretch is read as the
  functions its operations apply to what the stretch finds; each region as the one function of its input arrays that
  its write-backs leave in its output array. A buffer that a segment does not write is carried through it unchanged.
-/
noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Layers Cert.Gcn

variable (m : (ℓ : Loc nD τ sig) → Buf (Elt Ideal) ℓ) (ρ : Dev nD → PrngReg) (c : Dev nD)

/-! ## Before the first region: the index columns, the degrees, the edge scale, the bias rows -/

set_option maxHeartbeats 1000000 in
theorem w1_v12 : W1 m ρ c (Proc.devRef .tc main_v12)
    = cmpf (F := Ideal) .ogt (deg (m ((c : Thread nD τ).loc main_arg1))) (broadcastInDim S100000 ![] Facts₀.bcast_S_S100000 (constant S_ .f32 0x00000000#32)) := by
  dsimp only [W1, W0, hostOps0]; after_results; rfl
set_option maxHeartbeats 1000000 in
theorem w1_v13 : W1 m ρ c (Proc.devRef .tc main_v13) = Host.rsqrt (deg (m ((c : Thread nD τ).loc main_arg1))) := by
  dsimp only [W1, W0, hostOps0]; after_results; rfl
set_option maxHeartbeats 1000000 in
theorem w1_cst2 : W1 m ρ c (Proc.devRef .tc main_cst_2) = constant (F := Ideal) S_ .f32 0x00000000#32 := by
  dsimp only [W1, W0, hostOps0]; after_results

section Casts
variable {Val : EltTy → Type}
/-! A buffer of the called function that selects (inverse square root where the degree is positive, zero elsewhere) is
read and written at its own tensor type: the transports between the two are identities. -/
theorem of_cst2 (v) : (TRef.of (sig := sig) (T := ⟨S_, .f32⟩) main_cst_2).ofBuf (Val := Val) v = v := rfl
theorem to_c0v0 (v) : (TRef.of (sig := sig) (T := ⟨S_, .f32⟩) main_call0_v0).toBuf (Val := Val) v = v := rfl
theorem of_c0v0 (v) : (TRef.of (sig := sig) (T := ⟨S_, .f32⟩) main_call0_v0).ofBuf (Val := Val) v = v := rfl
theorem to_c0v1 (v) : (TRef.of (sig := sig) (T := ⟨S100000, .f32⟩) main_call0_v1).toBuf (Val := Val) v = v := rfl
theorem of_c0v1 (v) : (TRef.of (sig := sig) (T := ⟨S100000, .f32⟩) main_call0_v1).ofBuf (Val := Val) v = v := rfl
theorem of_v12 (v) : (TRef.of (sig := sig) (T := ⟨S100000, .i1⟩) main_v12).ofBuf (Val := Val) v = v := rfl
theorem of_v13 (v) : (TRef.of (sig := sig) (T := ⟨S100000, .f32⟩) main_v13).ofBuf (Val := Val) v = v := rfl
theorem to_v14 (v) : (TRef.of (sig := sig) (T := ⟨S100000, .f32⟩) main_v14).toBuf (Val := Val) v = v := rfl
end Casts

set_option maxHeartbeats 1000000 in
set_option maxHeartbeats 1000000 in
theorem w2_v14 : W2 m ρ c (Proc.devRef .tc main_v14) = dis (m ((c : Thread nD τ).loc main_arg1)) := by
  have h12 := w1_v12 m ρ c; have h13 := w1_v13 m ρ c; have hc := w1_cst2 m ρ c
  show StableHlo.after hostOps0_1 (W1 m ρ c) (Proc.devRef .tc main_v14) = _
  generalize W1 m ρ c = U at h12 h13 hc ⊢
  dsimp only [hostOps0_1]; after_results
  rw [h12, h13, hc, to_v14, of_v12, of_v13, of_c0v1, to_c0v1, of_c0v0, to_c0v0, of_cst2]
  rfl
set_option maxHeartbeats 1000000 in
theorem w2_v3 : W2 m ρ c (Proc.devRef .tc main_v3) = src (m ((c : Thread nD τ).loc main_arg1)) := by
  dsimp only [W2, W1, W0, hostOps0, hostOps0_1]; after_results; rfl
set_option maxHeartbeats 1000000 in
theorem w2_v6 : W2 m ρ c (Proc.devRef .tc main_v6) = dst (m ((c : Thread nD τ).loc main_arg1)) := by
  dsimp only [W2, W1, W0, hostOps0, hostOps0_1]; after_results; rfl

set_option maxHeartbeats 1000000 in
theorem w3_v29 : W3 m ρ c (Proc.devRef .tc main_v29) = edgeScale (m ((c : Thread nD τ).loc main_arg1)) := by
  have h14 := w2_v14 m ρ c; have h3 := w2_v3 m ρ c; have h6 := w2_v6 m ρ c
  show StableHlo.after hostOps0_2 (W2 m ρ c) (Proc.devRef .tc main_v29) = _
  generalize W2 m ρ c = U at h14 h3 h6 ⊢
  dsimp only [hostOps0_2]; after_results
  rw [h14, h3, h6]; rfl
set_option maxHeartbeats 1000000 in
theorem w3_v3 : W3 m ρ c (Proc.devRef .tc main_v3) = src (m ((c : Thread nD τ).loc main_arg1)) := by
  dsimp only [W3, W2, W1, W0, hostOps0, hostOps0_1, hostOps0_2]; after_results; rfl
set_option maxHeartbeats 1000000 in
theorem w3_v6 : W3 m ρ c (Proc.devRef .tc main_v6) = dst (m ((c : Thread nD τ).loc main_arg1)) := by
  dsimp only [W3, W2, W1, W0, hostOps0, hostOps0_1, hostOps0_2]; after_results; rfl
set_option maxHeartbeats 1000000 in
theorem w3_v30 : W3 m ρ c (Proc.devRef .tc main_v30) = biasRow (m ((c : Thread nD τ).loc main_arg3)) := by
  dsimp only [W3, W2, W1, W0, hostOps0, hostOps0_1, hostOps0_2]; after_results; rfl
set_option maxHeartbeats 1000000 in
theorem w3_v31 : W3 m ρ c (Proc.devRef .tc main_v31) = biasRow (m ((c : Thread nD τ).loc main_arg5)) := by
  dsimp only [W3, W2, W1, W0, hostOps0, hostOps0_1, hostOps0_2]; after_results; rfl
set_option maxHeartbeats 1000000 in
theorem w3_arg0 : W3 m ρ c (Proc.devRef .tc main_arg0) = m ((c : Thread nD τ).loc main_arg0) := by
  dsimp only [W3, W2, W1, W0, hostOps0, hostOps0_1, hostOps0_2]; after_results
set_option maxHeartbeats 1000000 in
theorem w3_arg2 : W3 m ρ c (Proc.devRef .tc main_arg2) = m ((c : Thread nD τ).loc main_arg2) := by
  dsimp only [W3, W2, W1, W0, hostOps0, hostOps0_1, hostOps0_2]; after_results
set_option maxHeartbeats 1000000 in
theorem w3_arg4 : W3 m ρ c (Proc.devRef .tc main_arg4) = m ((c : Thread nD τ).loc main_arg4) := by
  dsimp only [W3, W2, W1, W0, hostOps0, hostOps0_1, hostOps0_2]; after_results

/-! ## Through the regions

Each region replaces its output array by one function of its input arrays (the linear transform, or the bias with
the maximum with zero) and leaves every other buffer alone; each stretch of host operations between regions writes
only its own results. So the index columns, the edge scale, the bias rows and the arguments are carried unchanged to
wherever they are read. -/

local macro "keep_through" ops:ident : tactic =>
  `(tactic| (show StableHlo.after $ops _ _ = _; dsimp only [$ops:ident]; after_results))

/-! ### Region 0: the first linear transform -/

theorem w4_v32 : W4 m ρ c (Proc.devRef .tc main_v32)
    = lin (m ((c : Thread nD τ).loc main_arg0)) (m ((c : Thread nD τ).loc main_arg2)) := by
  refine (show W4 m ρ c (Proc.devRef .tc main_v32) = (dat0 (V3 m ρ) c).arrAt 2 cfg0.N from W4_arr m ρ c 2).trans ?_
  rw [Region.final0 (V3 m ρ) c]
  show lin (W3 m ρ c (Proc.devRef .tc main_arg0)) (W3 m ρ c (Proc.devRef .tc main_arg2)) = _
  rw [w3_arg0, w3_arg2]
theorem w4_v3 : W4 m ρ c (Proc.devRef .tc main_v3) = src (m ((c : Thread nD τ).loc main_arg1)) :=
  (W4_of_ne m ρ c main_v3 (by decide)).trans (w3_v3 m ρ c)
theorem w4_v6 : W4 m ρ c (Proc.devRef .tc main_v6) = dst (m ((c : Thread nD τ).loc main_arg1)) :=
  (W4_of_ne m ρ c main_v6 (by decide)).trans (w3_v6 m ρ c)
theorem w4_v29 : W4 m ρ c (Proc.devRef .tc main_v29) = edgeScale (m ((c : Thread nD τ).loc main_arg1)) :=
  (W4_of_ne m ρ c main_v29 (by decide)).trans (w3_v29 m ρ c)
theorem w4_v30 : W4 m ρ c (Proc.devRef .tc main_v30) = biasRow (m ((c : Thread nD τ).loc main_arg3)) :=
  (W4_of_ne m ρ c main_v30 (by decide)).trans (w3_v30 m ρ c)
theorem w4_v31 : W4 m ρ c (Proc.devRef .tc main_v31) = biasRow (m ((c : Thread nD τ).loc main_arg5)) :=
  (W4_of_ne m ρ c main_v31 (by decide)).trans (w3_v31 m ρ c)
theorem w4_arg0 : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (w3_arg0 m ρ c)
theorem w4_arg4 : W4 m ρ c (Proc.devRef .tc main_arg4) = m ((c : Thread nD τ).loc main_arg4) :=
  (W4_of_ne m ρ c main_arg4 (by decide)).trans (w3_arg4 m ρ c)

/-! ### The first aggregation -/

set_option maxHeartbeats 1000000 in
theorem w5_v45 : W5 m ρ c (Proc.devRef .tc main_v45)
    = aggregate (lin (m ((c : Thread nD τ).loc main_arg0)) (m ((c : Thread nD τ).loc main_arg2))) (m ((c : Thread nD τ).loc main_arg1)) := by
  have h32 := w4_v32 m ρ c; have h3 := w4_v3 m ρ c; have h6 := w4_v6 m ρ c; have h29 := w4_v29 m ρ c
  show StableHlo.after hostOps1 (W4 m ρ c) (Proc.devRef .tc main_v45) = _
  generalize W4 m ρ c = U at h32 h3 h6 h29 ⊢
  dsimp only [hostOps1]; after_results
  rw [h32, h3, h6, h29]; rfl
set_option maxHeartbeats 1000000 in
theorem w5_v3 : W5 m ρ c (Proc.devRef .tc main_v3) = src (m ((c : Thread nD τ).loc main_arg1)) :=
  (by keep_through hostOps1 : W5 m ρ c (Proc.devRef .tc main_v3) = W4 m ρ c (Proc.devRef .tc main_v3)).trans (w4_v3 m ρ c)
set_option maxHeartbeats 1000000 in
theorem w5_v6 : W5 m ρ c (Proc.devRef .tc main_v6) = dst (m ((c : Thread nD τ).loc main_arg1)) :=
  (by keep_through hostOps1 : W5 m ρ c (Proc.devRef .tc main_v6) = W4 m ρ c (Proc.devRef .tc main_v6)).trans (w4_v6 m ρ c)
set_option maxHeartbeats 1000000 in
theorem w5_v29 : W5 m ρ c (Proc.devRef .tc main_v29) = edgeScale (m ((c : Thread nD τ).loc main_arg1)) :=
  (by keep_through hostOps1 : W5 m ρ c (Proc.devRef .tc main_v29) = W4 m ρ c (Proc.devRef .tc main_v29)).trans (w4_v29 m ρ c)
set_option maxHeartbeats 1000000 in
theorem w5_v30 : W5 m ρ c (Proc.devRef .tc main_v30) = biasRow (m ((c : Thread nD τ).loc main_arg3)) :=
  (by keep_through hostOps1 : W5 m ρ c (Proc.devRef .tc main_v30) = W4 m ρ c (Proc.devRef .tc main_v30)).trans (w4_v30 m ρ c)
set_option maxHeartbeats 1000000 in
theorem w5_v31 : W5 m ρ c (Proc.devRef .tc main_v31) = biasRow (m ((c : Thread nD τ).loc main_arg5)) :=
  (by keep_through hostOps1 : W5 m ρ c (Proc.devRef .tc main_v31) = W4 m ρ c (Proc.devRef .tc main_v31)).trans (w4_v31 m ρ c)
set_option maxHeartbeats 1000000 in
theorem w5_arg0 : W5 m ρ c (Proc.devRef .tc main_arg0) = m ((c : Thread nD τ).loc main_arg0) :=
  (by keep_through hostOps1 : W5 m ρ c (Proc.devRef .tc main_arg0) = W4 m ρ c (Proc.devRef .tc main_arg0)).trans (w4_arg0 m ρ c)
set_option maxHeartbeats 1000000 in
theorem w5_arg4 : W5 m ρ c (Proc.devRef .tc main_arg4) = m ((c : Thread nD τ).loc main_arg4) :=
  (by keep_through hostOps1 : W5 m ρ c (Proc.devRef .tc main_arg4) = W4 m ρ c (Proc.devRef .tc main_arg4)).trans (w4_arg4 m ρ c)

/-! ### Region 1: the first bias and maximum with zero -/

/-- The hidden features after the first layer. -/
abbrev hidden : FVec Ideal S100000x64 .f32 :=
  biasRelu (aggregate (lin (m ((c : Thread nD τ).loc main_arg0)) (m ((c : Thread nD τ).loc main_arg2))) (m ((c : Thread nD τ).loc main_arg1)))
    (biasRow (m ((c : Thread nD τ).loc main_arg3)))

theorem w6_v46 : W6 m ρ c (Proc.devRef .tc main_v46) = hidden m c := by
  refine (show W6 m ρ c (Proc.devRef .tc main_v46) = (dat1 (V5 m ρ) c).arrAt 2 cfg1.N from W6_arr m ρ c 2).trans ?_
  rw [Region.final1 (V5 m ρ) c]
  show biasRelu (F := Ideal) (W5 m ρ c (Proc.devRef .tc main_v45)) (W5 m ρ c (Proc.devRef .tc main_v30)) = _
  rw [w5_v45, w5_v30]
theorem w6_v3 : W6 m ρ c (Proc.devRef .tc main_v3) = src (m ((c : Thread nD τ).loc main_arg1)) :=
  (W6_of_ne m ρ c main_v3 (by decide)).trans (w5_v3 m ρ c)
theorem w6_v6 : W6 m ρ c (Proc.devRef .tc main_v6) = dst (m ((c : Thread nD τ).loc main_arg1)) :=
  (W6_of_ne m ρ c main_v6 (by decide)).trans (w5_v6 m ρ c)
theorem w6_v29 : W6 m ρ c (Proc.devRef .tc main_v29) = edgeScale (m ((c : Thread nD τ).loc main_arg1)) :=
  (W6_of_ne m ρ c main_v29 (by decide)).trans (w5_v29 m ρ c)
theorem w6_v31 : W6 m ρ c (Proc.devRef .tc main_v31) = biasRow (m ((c : Thread nD τ).loc main_arg5)) :=
  (W6_of_ne m ρ c main_v31 (by decide)).trans (w5_v31 m ρ c)
theorem w6_arg0 : W6 m ρ c (Proc.devRef .tc main_arg0) = m ((c : Thread nD τ).loc main_arg0) :=
  (W6_of_ne m ρ c main_arg0 (by decide)).trans (w5_arg0 m ρ c)
theorem w6_arg4 : W6 m ρ c (Proc.devRef .tc main_arg4) = m ((c : Thread nD τ).loc main_arg4) :=
  (W6_of_ne m ρ c main_arg4 (by decide)).trans (w5_arg4 m ρ c)

/-! ### Region 2: the second linear transform -/

theorem w7_v47 : W7 m ρ c (Proc.devRef .tc main_v47) = lin (hidden m c) (m ((c : Thread nD τ).loc main_arg4)) := by
  refine (show W7 m ρ c (Proc.devRef .tc main_v47) = (dat2 (V6 m ρ) c).arrAt 2 cfg2.N from W7_arr m ρ c 2).trans ?_
  rw [Region.final2 (V6 m ρ) c]
  show lin (W6 m ρ c (Proc.devRef .tc main_v46)) (W6 m ρ c (Proc.devRef .tc main_arg4)) = _
  rw [w6_v46, w6_arg4]
theorem w7_v3 : W7 m ρ c (Proc.devRef .tc main_v3) = src (m ((c : Thread nD τ).loc main_arg1)) :=
  (W7_of_ne m ρ c main_v3 (by decide)).trans (w6_v3 m ρ c)
theorem w7_v6 : W7 m ρ c (Proc.devRef .tc main_v6) = dst (m ((c : Thread nD τ).loc main_arg1)) :=
  (W7_of_ne m ρ c main_v6 (by decide)).trans (w6_v6 m ρ c)
theorem w7_v29 : W7 m ρ c (Proc.devRef .tc main_v29) = edgeScale (m ((c : Thread nD τ).loc main_arg1)) :=
  (W7_of_ne m ρ c main_v29 (by decide)).trans (w6_v29 m ρ c)
theorem w7_v31 : W7 m ρ c (Proc.devRef .tc main_v31) = biasRow (m ((c : Thread nD τ).loc main_arg5)) :=
  (W7_of_ne m ρ c main_v31 (by decide)).trans (w6_v31 m ρ c)
theorem w7_arg0 : W7 m ρ c (Proc.devRef .tc main_arg0) = m ((c : Thread nD τ).loc main_arg0) :=
  (W7_of_ne m ρ c main_arg0 (by decide)).trans (w6_arg0 m ρ c)

/-! ### The second aggregation -/

set_option maxHeartbeats 1000000 in
theorem w8_v60 : W8 m ρ c (Proc.devRef .tc main_v60)
    = aggregate (lin (hidden m c) (m ((c : Thread nD τ).loc main_arg4))) (m ((c : Thread nD τ).loc main_arg1)) := by
  have h47 := w7_v47 m ρ c; have h3 := w7_v3 m ρ c; have h6 := w7_v6 m ρ c; have h29 := w7_v29 m ρ c
  show StableHlo.after hostOps3 (W7 m ρ c) (Proc.devRef .tc main_v60) = _
  generalize W7 m ρ c = U at h47 h3 h6 h29 ⊢
  dsimp only [hostOps3]; after_results
  rw [h47, h3, h6, h29]; rfl
set_option maxHeartbeats 1000000 in
theorem w8_v31 : W8 m ρ c (Proc.devRef .tc main_v31) = biasRow (m ((c : Thread nD τ).loc main_arg5)) :=
  (by keep_through hostOps3 : W8 m ρ c (Proc.devRef .tc main_v31) = W7 m ρ c (Proc.devRef .tc main_v31)).trans (w7_v31 m ρ c)
set_option maxHeartbeats 1000000 in
theorem w8_arg0 : W8 m ρ c (Proc.devRef .tc main_arg0) = m ((c : Thread nD τ).loc main_arg0) :=
  (by keep_through hostOps3 : W8 m ρ c (Proc.devRef .tc main_arg0) = W7 m ρ c (Proc.devRef .tc main_arg0)).trans (w7_arg0 m ρ c)

/-! ### Region 3: the second bias, the maximum with zero, the residual -/

/-- What the program returns: the network of the six arguments as launched. -/
theorem result_eq : W9 m ρ c (Proc.devRef .tc main_v61)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (show W9 m ρ c (Proc.devRef .tc main_v61) = (dat3 (V8 m ρ) c).arrAt 3 cfg3.N from W9_arr m ρ c 3).trans ?_
  rw [Region.final3 (V8 m ρ) c]
  show biasReluRes (F := Ideal) (W8 m ρ c (Proc.devRef .tc main_v60)) (W8 m ρ c (Proc.devRef .tc main_v31)) (W8 m ρ c (Proc.devRef .tc main_arg0)) = _
  rw [w8_v60, w8_v31, w8_arg0]
  rfl

end Cert.KernelIdeal.Chain

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«154627_j31258771980774_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.RefValue.lean ====
import proofs.«154627_j31258771980774_1_alg».proof.Proof.RefRun
import proofs.«154627_j31258771980774_1_alg».proof.Proof.Layers
import proofs.«154627_j31258771980774_1_alg».proof.Proof.LibHostDot
import Idealize.ShloMosaic.Lib.Pipeline.Value
import Idealize.ShloMosaic.Lib.ValueIdx
import Idealize.ShloMosaic.Lib.ValueLayout

set_option maxRecDepth 16384
noncomputable section
namespace Cert.ReferenceIdeal.RefValue
open Idealize.ShloMosaic Idealize.ShloMosaic.TcCoe Idealize.SL.Sem Idealize.ShloMosaic.ValueIdx
open Cert.ReferenceIdeal Cert.ReferenceIdeal.Gen

/-! # The reference's result is the network

The reference computes one term of its six arguments. Read from the leaves up it is the network written piece by
piece: the edge list's two columns with the self loops appended, the columns of gather and scatter indices, the
degrees, their inverse square roots, the normalisation of every edge, one layer's neighbour aggregation of a feature
matrix; these are the same operations on both sides and are compared as wholes. Three places carry arithmetic: the
matrix product is the linear transform (a sum over the 64 shared features at every entry), the bias spread over the
rows then the maximum with zero is the bias-and-ReLU on the bias as one row, and the last addition is the residual.

## The indexing pieces, as wholes -/

/-- The sources: the edge list's first row, then the self loops. -/
theorem src_eq (e : (⟨S2x1250000, .i32⟩ : BufTy).Contents (Elt Ideal)) :
    concatenate S1350000 0 [⟨S1250000, (shapeCast _ (extractStridedSlice S1x1250000 ![0, 0] e slices_S2x1250000_S1x1250000_0_0) shapeCasts_S1x1250000_S1250000)⟩, ⟨S100000, (iotaInDim S100000 32 0)⟩] concatenates_S1250000_S100000_S1350000_d0 = Cert.KernelIdeal.Layers.src e := rfl

/-- The destinations: the edge list's second row, then the self loops. -/
theorem dst_eq (e : (⟨S2x1250000, .i32⟩ : BufTy).Contents (Elt Ideal)) :
    concatenate S1350000 0 [⟨S1250000, (shapeCast _ (extractStridedSlice S1x1250000 ![1, 0] e slices_S2x1250000_S1x1250000_1_0) shapeCasts_S1x1250000_S1250000)⟩, ⟨S100000, (iotaInDim S100000 32 0)⟩] concatenates_S1250000_S100000_S1350000_d0 = Cert.KernelIdeal.Layers.dst e := rfl

/-- Node indices as a column of start indices: an index below zero moved up by the number of nodes. -/
theorem wrapCol_eq (v : (⟨S1350000, .i32⟩ : BufTy).Contents (Elt Ideal)) :
    broadcastInDim S1350000x1 ![0] bcast_S1350000_S1350000x1_0 (select (cmpi .slt v (broadcastInDim S1350000 ![] bcast_S_S1350000 (constantI S_ 32 0#32))) (addi v (broadcastInDim S1350000 ![] bcast_S_S1350000 (constantI S_ 32 100000#32))) v)
      = Cert.KernelIdeal.Layers.wrapCol v := rfl

/-- The degrees: ones added along the destinations. -/
theorem deg_eq (e : (⟨S2x1250000, .i32⟩ : BufTy).Contents (Elt Ideal)) :
    Host.scatterAdd scatter_S100000_S1350000x1_S1350000_n_0_0_1 (broadcastInDim S100000 ![] bcast_S_S100000 (constant (F := Ideal) S_ .f32 0x00000000#32)) (broadcastInDim S1350000x1 ![0] bcast_S1350000_S1350000x1_0 (Cert.KernelIdeal.Layers.dst e)) (broadcastInDim S1350000 ![] bcast_S_S1350000 (constant (F := Ideal) S_ .f32 0x3F800000#32))
      = Cert.KernelIdeal.Layers.deg e := rfl

/-- The inverse square root of the degree where it is positive, zero elsewhere. -/
theorem dis_eq (e : (⟨S2x1250000, .i32⟩ : BufTy).Contents (Elt Ideal)) :
    select (cmpf (F := Ideal) .ogt (Cert.KernelIdeal.Layers.deg e) (broadcastInDim S100000 ![] bcast_S_S100000 (constant (F := Ideal) S_ .f32 0x00000000#32))) (Host.rsqrt (Cert.KernelIdeal.Layers.deg e)) (broadcastInDim S100000 ![] bcast_S_S100000 (id (constant (F := Ideal) S_ .f32 0x00000000#32)))
      = Cert.KernelIdeal.Layers.dis e := rfl

/-- The normalisation of every edge: that quantity at its source times that quantity at its destination. -/
theorem edgeScale_eq (e : (⟨S2x1250000, .i32⟩ : BufTy).Contents (Elt Ideal)) :
    mulf (Host.gather gather_S100000_S1350000x1_S1350000_n_0_n_n_0_1_1 (Cert.KernelIdeal.Layers.dis e) (Cert.KernelIdeal.Layers.wrapCol (Cert.KernelIdeal.Layers.src e))) (Host.gather gather_S100000_S1350000x1_S1350000_n_0_n_n_0_1_1 (Cert.KernelIdeal.Layers.dis e) (Cert.KernelIdeal.Layers.wrapCol (Cert.KernelIdeal.Layers.dst e)))
      = Cert.KernelIdeal.Layers.edgeScale e := rfl

/-- One layer's neighbour aggregation of any feature matrix: gather at the sources, scale, scatter-add at the destinations. -/
theorem aggregate_eq (h : FVec Ideal S100000x64 .f32) (e : (⟨S2x1250000, .i32⟩ : BufTy).Contents (Elt Ideal)) :
    Host.scatterAdd scatter_S100000x64_S1350000x1_S1350000x64_1_0_0_1 (broadcastInDim S100000x64 ![] bcast_S_S100000x64 (constant (F := Ideal) S_ .f32 0x00000000#32)) (broadcastInDim S1350000x1 ![0] bcast_S1350000_S1350000x1_0 (Cert.KernelIdeal.Layers.dst e)) (mulf (Host.gather gather_S100000x64_S1350000x1_S1350000x64_1_0_n_n_0_1_164 h (Cert.KernelIdeal.Layers.wrapCol (Cert.KernelIdeal.Layers.src e))) (broadcastInDim S1350000x64 ![0, 1] bcast_S1350000x1_S1350000x64_0_1 (broadcastInDim S1350000x1 ![0] bcast_S1350000_S1350000x1_0 (Cert.KernelIdeal.Layers.edgeScale e))))
      = Cert.KernelIdeal.Layers.aggregate h e := rfl

/-! ## The three places with arithmetic -/

/-- The reference's matrix product is the linear transform: at (p, q) the sum over the 64 shared features. -/
theorem lin_eq (x : FVec Ideal S100000x64 .f32) (w : FVec Ideal S64x64 .f32) :
    Host.dotGeneral dot_S100000x64_S64x64_S100000x64_1_0_0_1_n_n none x w = Cert.Gcn.lin x w := by
  funext j
  obtain ⟨p, q, rfl⟩ : ∃ (p : Fin 100000) (q : Fin 64), j = ix2 p q := ⟨j 0, j 1, eq_ix2 j⟩
  rw [Cert.Gcn.lin_apply]
  exact Cert.LibHostDot.dotGeneral_plain dot_S100000x64_S64x64_S100000x64_1_0_0_1_n_n_wf .single x w p q

/-- A bias of 64 entries spread over the rows reads, at (p, q), its entry q. -/
theorem bias_spread_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  refine (broadcastInDim_apply _ _ _ (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (64 : Nat) = 1 then 0 else q.val; rw [if_neg (by decide)]
  · refine broadcastInDim_apply _ _ _ (ix2 (0 : Fin 1) q) (ix1 q) (fun a => ?_)
    match a with
    | ⟨0, _⟩ => show q.val = if (64 : Nat) = 1 then 0 else q.val; rw [if_neg (by decide)]

/-- The bias as one row reads, at (0, q), its entry q. -/
theorem biasRow_apply (b : FVec Ideal S64 .f32) (q : Fin 64) :
    Cert.KernelIdeal.Layers.biasRow b (ix2 (0 : Fin 1) q) = b (ix1 q) := by
  unfold Cert.KernelIdeal.Layers.biasRow
  refine shapeCast_apply b _ (ix2 (0 : Fin 1) q) (ix1 q) ?_
  rw [Shape.rowMajor_val_one, Shape.rowMajor_val_two]
  show q.val = 0 * 64 + q.val
  omega

/-- The reference's bias and ReLU is the specification's, on the bias as one row. -/
theorem biasRelu_eq (a : FVec Ideal S100000x64 .f32) (b : FVec Ideal S64 .f32) :
    maximumf (addf a (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32))
      = Cert.Gcn.biasRelu a (Cert.KernelIdeal.Layers.biasRow b) := by
  funext j
  obtain ⟨p, q, rfl⟩ : ∃ (p : Fin 100000) (q : Fin 64), j = ix2 p q := ⟨j 0, j 1, eq_ix2 j⟩
  rw [Cert.Gcn.biasRelu_apply, biasRow_apply]
  show FloatOps.maximumf (FloatOps.addf (a (ix2 p q)) (broadcastInDim S100000x64 ![0, 1] bcast_S1x64_S100000x64_0_1 (broadcastInDim S1x64 ![1] bcast_S64_S1x64_1 b) (ix2 p q)))
      (broadcastInDim S100000x64 ![] bcast_S_S100000x64 (constant (F := Ideal) S_ .f32 0x00000000#32) (ix2 p q)) = _
  rw [bias_spread_apply, broadcastInDim_apply _ _ _ (ix2 p q) ix0 (fun a => a.elim0)]
  rfl

/-- The residual added to a bias-and-ReLU is the specification's last piece. -/
theorem biasReluRes_eq (a : FVec Ideal S100000x64 .f32) (b : FVec Ideal S1x64 .f32) (x : FVec Ideal S100000x64 .f32) :
    addf (Cert.Gcn.biasRelu a b) x = Cert.Gcn.biasReluRes a b x := rfl

/-! ## The result -/

/-- The reference's result array is the network of its six arguments. -/
theorem result_eq (m : (ℓ : Loc nD τ sig) → Buf (Elt Ideal) ℓ) (c : Dev nD) :
    Cert.ReferenceIdeal.ValueP.res_main_v66 (F := Ideal) m c
      = Cert.KernelIdeal.Layers.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v66
  rw [src_eq, dst_eq, wrapCol_eq (Cert.KernelIdeal.Layers.src _), wrapCol_eq (Cert.KernelIdeal.Layers.dst _), deg_eq, dis_eq,
    edgeScale_eq, aggregate_eq, aggregate_eq, lin_eq, lin_eq, biasRelu_eq, biasRelu_eq, biasReluRes_eq]
  rfl

end Cert.ReferenceIdeal.RefValue
end
-- ==== Proof.lean ====
/-
  A two-layer graph convolution with a residual on 100000 nodes of 64 features: a kernel program of four pipelined
  regions among host operations, against a plain array program. Both compute, on the extended reals,
      x ↦ max(agg(max(agg(x·W1) + b1, 0)·W2) + b2, 0) + x,
  where agg gathers the rows of a feature matrix at the edges' sources, scales each by the edge's symmetric
  normalisation and scatter-adds them at the destinations (the edge list extended by the self loops).

  The two programs spell the indexing and the aggregation alike, so these are never opened. They differ in three
  places. The kernel computes each linear transform block by block (10000 rows at a time) as a matrix product into a
  zero accumulator after a change of float format, which is the identity on the extended reals; the array program
  as one product: both are the same sums, row against column. The kernel adds a bias as a [1, 64] row spread over a
  block of rows, the array program as a broadcast of the 64 entries: the same entry is read. And the kernel's blocks
  tile the arrays, so each region's output array is one function of its input arrays.

  Every law used is an identity of sums and of entries read at an index; none needs finiteness, so the
  precondition is not opened. The argument arrays end as launched in all three programs (the frames), and the
  idealized kernel is the printed kernel read at the extended reals with no rewrite (nothing to preserve).
-/
import proofs.«154627_j31258771980774_1_alg».proof.Defs
import proofs.«154627_j31258771980774_1_alg».proof.Proof.Gen.Kernel
import proofs.«154627_j31258771980774_1_alg».proof.Proof.Gen.Kernel.Skeleton
import proofs.«154627_j31258771980774_1_alg».proof.Proof.Gen.Kernel.Launch
import proofs.«154627_j31258771980774_1_alg».proof.Proof.Gen.Kernel.Points
import proofs.«154627_j31258771980774_1_alg».proof.Proof.Gen.Kernel.Frame
import proofs.«154627_j31258771980774_1_alg».proof.Proof.Gen.KernelIdeal
import proofs.«154627_j31258771980774_1_alg».proof.Proof.Gen.KernelIdeal.Skeleton
import proofs.«154627_j31258771980774_1_alg».proof.Proof.Gen.KernelIdeal.Launch
import proofs.«154627_j31258771980774_1_alg».proof.Proof.Gen.KernelIdeal.Points
import proofs.«154627_j31258771980774_1_alg».proof.Proof.Gen.KernelIdeal.Frame
import proofs.«154627_j31258771980774_1_alg».proof.Proof.Gen.ReferenceIdeal
import proofs.«154627_j31258771980774_1_alg».proof.Proof.Gen.Pre_finite_inputs
import proofs.«154627_j31258771980774_1_alg».proof.Proof.KernelRun
import proofs.«154627_j31258771980774_1_alg».proof.Proof.KernelValue
import proofs.«154627_j31258771980774_1_alg».proof.Proof.RefRun
import proofs.«154627_j31258771980774_1_alg».proof.Proof.RefValue
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The array program is a straight line of host operations: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten for the ideal reading. -/
theorem preserves : Cert.preserves_Kernel_KernelIdeal := trivial

/-- Both programs end with the network of the arguments in their result array. -/
theorem algebraic : Cert.algebraic_KernelIdeal_ReferenceIdeal := by
  intro m ρ m' ρ' _ hagree
  refine ⟨fun c => Cert.KernelIdeal.Layers.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
